-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S64x64 .f32) (main_arg6 : FVec F S64 .f32) (main_arg7 : FVec F S64x1 .f32) (main_arg8 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg7
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1600000 .f32) (main_arg3 : FVec F S128x64 .f32) (main_arg4 : FVec F S64 .f32) (main_arg5 : FVec F S64x64 .f32) (main_arg6 : FVec F S64 .f32) (main_arg7 : FVec F S64x1 .f32) (main_arg8 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S1x1 : Shape := ⟨2, ![1, 1]⟩
abbrev S100000x1 : Shape := ⟨2, ![100000, 1]⟩
abbrev S10000x1 : Shape := ⟨2, ![10000, 1]⟩
abbrev S10000 : Shape := ⟨1, ![10000]⟩

abbrev nBuf : Space → Nat
  | .hbm => 91
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000, .f32⟩
  | .hbm, ⟨53, _⟩ => ⟨S1700000, .f32⟩
  | .hbm, ⟨54, _⟩ => ⟨S1700000x1, .f32⟩
  | .hbm, ⟨55, _⟩ => ⟨S100000x64, .f32⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S1700000x64, .f32⟩
  | .hbm, ⟨65, _⟩ => ⟨S1700000x64, .f32⟩
  | .hbm, ⟨66, _⟩ => ⟨S1700000x64, .f32⟩
  | .hbm, ⟨67, _⟩ => ⟨S_, .f32⟩
  | .hbm, ⟨68, _⟩ => ⟨S100000x64, .f32⟩
  | .hbm, ⟨69, _⟩ => ⟨S1700000x1, .i32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x64, .f32⟩
  | .hbm, ⟨82, _⟩ => ⟨S1700000x64, .f32⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S1x64, .f32⟩
  | .hbm, ⟨89, _⟩ => ⟨S1x1, .f32⟩
  | .hbm, ⟨90, _⟩ => ⟨S100000x1, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x1, .f32⟩
  | .local _ .vmem, ⟨15, _⟩ => ⟨S1x1, .f32⟩
  | .local _ .vmem, ⟨16, _⟩ => ⟨S10000x1, .f32⟩
  | .local _ .vmem, ⟨17, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_10 : Ref sig .tc := ⟨.hbm, 73, rfl⟩
abbrev main_v50 : Ref sig .tc := ⟨.hbm, 74, rfl⟩
abbrev main_v51 : Ref sig .tc := ⟨.hbm, 75, rfl⟩
abbrev main_c_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S1_S1x1 : S1.ShapeCasts S1x1
  inb_S64x1_S64x1_0_0 : ∀ a, (![0, 0] : Fin 2 → Nat) a + S64x1.size a ≤ S64x1.size a
  h_S64x1 : 0 < S64x1.numel
  shapeCasts_S64x1_S64 : S64x1.ShapeCasts S64
  reduces_S10000x64_S10000 : S10000x64.Reduces [1] S10000
  shapeCasts_S10000_S10000x1 : S10000.ShapeCasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S64x1.size a
  hwx2_2 : ∀ i : grid2.Coords, EltTy.bits .f32 = 32 ∨ (Rect.block (s := S64x1) S64x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x1.size a ≤ S100000x1.size a
  hwx2_4 : ∀ i : grid2.Coords, EltTy.bits .f32 = 32 ∨ (Rect.block (s := S100000x1) S10000x1.size (cc2_transform_4 i) (hinb2_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v61) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v64) S10000x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000, .f32⟩
  | .hbm, ⟨53, _⟩ => ⟨S1700000, .f32⟩
  | .hbm, ⟨54, _⟩ => ⟨S100000x64, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x64, .f32⟩
  | .hbm, ⟨64, _⟩ => ⟨S1700000x1, .f32⟩
  | .hbm, ⟨65, _⟩ => ⟨S1700000x64, .f32⟩
  | .hbm, ⟨66, _⟩ => ⟨S1700000x64, .f32⟩
  | .hbm, ⟨67, _⟩ => ⟨S_, .f32⟩
  | .hbm, ⟨68, _⟩ => ⟨S100000x64, .f32⟩
  | .hbm, ⟨69, _⟩ => ⟨S1700000x1, .i32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x64, .f32⟩
  | .hbm, ⟨84, _⟩ => ⟨S1700000x1, .f32⟩
  | .hbm, ⟨85, _⟩ => ⟨S1700000x64, .f32⟩
  | .hbm, ⟨86, _⟩ => ⟨S1700000x64, .f32⟩
  | .hbm, ⟨87, _⟩ => ⟨S_, .f32⟩
  | .hbm, ⟨88, _⟩ => ⟨S100000x64, .f32⟩
  | .hbm, ⟨89, _⟩ => ⟨S1700000x1, .i32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | .hbm, ⟨94, _⟩ => ⟨S100000x1, .f32⟩
  | .hbm, ⟨95, _⟩ => ⟨S1x1, .f32⟩
  | .hbm, ⟨96, _⟩ => ⟨S100000x1, .f32⟩
  | .hbm, ⟨97, _⟩ => ⟨S100000x1, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S100000x1, .f32⟩
  | .hbm, ⟨102, _⟩ => ⟨S100000x1, .f32⟩
  | .hbm, ⟨103, _⟩ => ⟨S_, .f32⟩
  | .hbm, ⟨104, _⟩ => ⟨S100000x1, .f32⟩
  | .hbm, ⟨105, _⟩ => ⟨S100000x1, .f32⟩
  | .hbm, ⟨106, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_c_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_13 : Ref sig .tc := ⟨.hbm, 98, rfl⟩
abbrev main_cst_14 : Ref sig .tc := ⟨.hbm, 99, rfl⟩
abbrev main_call1_v0 : Ref sig .tc := ⟨.hbm, 100, rfl⟩
abbrev main_call1_v1 : Ref sig .tc := ⟨.hbm, 101, rfl⟩
abbrev main_call1_v2 : Ref sig .tc := ⟨.hbm, 102, rfl⟩
abbrev main_call1_v3 : Ref sig .tc := ⟨.hbm, 103, rfl⟩
abbrev main_call1_v4 : Ref sig .tc := ⟨.hbm, 104, rfl⟩
abbrev main_v72 : Ref sig .tc := ⟨.hbm, 105, rfl⟩
abbrev main_v73 : Ref sig .tc := ⟨.hbm, 106, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The kernel program's run, with its result read.

  The program is eight segments in a row: three stretches of host operations, the first region, a stretch, the second
  region, a stretch, the third region. Each segment takes the TensorCore's buffers from one valuation to the next (a
  stretch by folding its operations, a region by replacing its arrays with what its write-backs leave), so every weakly
  fair execution terminates without a fault in a state whose buffers are the last valuation of that chain. Read at the
  argument arrays that valuation is the launch memory; read at the result it is the third region's output array, which
  the value modules then identify.
-/
import proofs.«151010_j79559974191165_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    valuation of the segment chain and the argument arrays as launched. -/
theorem run : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.KernelIdeal.ResultRun

end
-- ==== Proof.LibPlainDot.lean ====
/-
  A plain matrix product's contraction sum, read at an index.

  For the dimension numbers of an `[M, K] × [K, N] → [M, N]` product — the left operand contracted on its second
  axis, the right on its first, no batch axis — the contraction index has one coordinate, ranging over `Fin K`; at the
  result index `(r, c)` and contraction position `k` the left operand is read at `(r, k)` and the right at `(k, c)`.
  So a sum over the contraction index of any function of the two operand indices is the sum over `k : Fin K` of that
  function at `(r, k)` and `(k, c)`. Both a kernel's matrix unit product into a zero accumulator and the host's
  `dot_general` are such sums over the extended reals (of the products of the operands' entries), so this is the one
  re-indexing either needs.
-/
import Idealize.ShloMosaic.PureOps.Dims
import Idealize.ShloMosaic.Lib.ValueIdx

namespace Idealize.ShloMosaic.PlainDot

open Idealize.ShloMosaic Idealize.ShloMosaic.ValueIdx

/-- The left operand's index at result index `(r, c)` and contraction position `k` is `(r, k)`, the right operand's
    `(k, c)`, for any record with the plain product's dimension numbers; `e` is the bijection between the contraction
    index and `Fin K`. -/
theorem plain_idx {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (r : Fin M) (c : Fin N) (k : Fin K) :
    d.lhsIdx (ix2 r c) ((contrEquiv1 d K hr hs).symm k) = ix2 r k
      ∧ d.rhsIdx (ix2 r c) ((contrEquiv1 d K hr hs).symm k) = ix2 k c := by
  constructor
  · funext a
    refine Fin.ext ?_
    match a with
    | ⟨0, _⟩ =>
      show (d.lhsIdx (ix2 r c) ((contrEquiv1 d K hr hs).symm k) 0).val = r.val
      unfold DotDims.lhsIdx
      rw [dif_neg (by rw [h5]; exact List.not_mem_nil), dif_pos (by rw [h3]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 0 _ (by decide) (by simp [h5, h3])
    | ⟨1, _⟩ =>
      show (d.lhsIdx (ix2 r c) ((contrEquiv1 d K hr hs).symm k) 1).val = k.val
      rw [d.lhsIdx_val_of_single h1]
      exact contrEquiv1_symm_val d K hr hs k
  · funext a
    refine Fin.ext ?_
    match a with
    | ⟨0, _⟩ =>
      show (d.rhsIdx (ix2 r c) ((contrEquiv1 d K hr hs).symm k) 0).val = k.val
      rw [d.rhsIdx_val_of_single h2]
      exact contrEquiv1_symm_val d K hr hs k
    | ⟨1, _⟩ =>
      show (d.rhsIdx (ix2 r c) ((contrEquiv1 d K hr hs).symm k) 1).val = c.val
      unfold DotDims.rhsIdx
      rw [dif_neg (by rw [h6]; exact List.not_mem_nil), dif_pos (by rw [h4]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 1 _ (by decide) (by simp [h5, h3, h4])

/-- THE CONTRACTION SUM OF A PLAIN PRODUCT at `(r, c)`: the sum over `k : Fin K` at the operand indices `(r, k)` and
    `(k, c)`, in any commutative additive monoid. -/
theorem plain_sum {β : Type*} [AddCommMonoid β] {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K)
    (f : (⟨2, ![M, K]⟩ : Shape).Idx → (⟨2, ![K, N]⟩ : Shape).Idx → β) (r : Fin M) (c : Fin N) :
    ∑ q : d.contr.Idx, f (d.lhsIdx (ix2 r c) q) (d.rhsIdx (ix2 r c) q) = ∑ k : Fin K, f (ix2 r k) (ix2 k c) := by
  rw [← Equiv.sum_comp (contrEquiv1 d K hr hs).symm]
  refine Finset.sum_congr rfl fun k _ => ?_
  obtain ⟨hl, hr'⟩ := plain_idx d h1 h2 h3 h4 h5 h6 hr hs r c k
  rw [hl, hr']

end Idealize.ShloMosaic.PlainDot
-- ==== Proof.LibRowsTimes.lean ====
/-
  A plain matrix product over the extended reals, as one function of its two operands.

  `rowsTimes x w` is the array whose entry `(r, c)` is the sum over `k` of `x (r, k) · w (k, c)`. Both the matrix unit's
  product into a zero accumulator and the host's `dot_general` ARE this function when their dimension numbers are the plain
  product's (the left operand contracted on its second axis, the right on its first, no batch axis): each is by definition
  the sum, over the contraction index, of the products of the operands' entries at the record's operand indices, and that
  sum is re-indexed by `k : Fin K` (`PlainDot.plain_sum`). Nothing here uses finiteness: the two sides are the same sum of
  the same products, term by term.
-/
import proofs.«151010_j79559974191165_2_alg».proof.Proof.LibPlainDot
import Idealize.ShloMosaic.PureOps.Ideal.Laws

noncomputable section

namespace Idealize.ShloMosaic.RowsTimes

open Idealize.ShloMosaic Idealize.ShloMosaic.ValueIdx

/-- Entry `(r, c)` is the sum over `k` of `x (r, k) · w (k, c)`. -/
def rowsTimes {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem rowsTimes_apply {M K N : Nat} (x : (⟨2, ![M, K]⟩ : Shape).Idx → EReal) (w : (⟨2, ![K, N]⟩ : Shape).Idx → EReal)
    (r : Fin M) (c : Fin N) : rowsTimes x w (ix2 r c) = ∑ k : Fin K, x (ix2 r k) * w (ix2 k c) := rfl

/-- The matrix unit's product into the zero accumulator, at an entry: the plain sum of products. -/
theorem matmul_zero_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) (r : Fin M) (c : Fin N) :
    FloatOps.matmul d prec x w (constant ⟨2, ![M, N]⟩ .f32 0x00000000#32) (ix2 r c)
      = ∑ k : Fin K, x (ix2 r k) * w (ix2 k c) :=
  (Ideal.matmul_constant_zero_apply d prec x w (ix2 r c)).trans
    (PlainDot.plain_sum d h1 h2 h3 h4 h5 h6 hr hs (fun i j => x i * w j) r c)

/-- The host's `dot_general` of a plain product IS `rowsTimes` of its operands. -/
theorem hostDot_eq {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) :
    Host.dotGeneral (F := Ideal) d prec x w = rowsTimes x w := by
  funext i
  obtain ⟨r, c, rfl⟩ : ∃ (r : Fin M) (c : Fin N), i = ix2 r c := ⟨i 0, i 1, eq_ix2 i⟩
  unfold Host.dotGeneral
  rw [Ideal.dotGeneral_apply]
  exact PlainDot.plain_sum d h1 h2 h3 h4 h5 h6 hr hs (fun i j => x i * w j) r c

end Idealize.ShloMosaic.RowsTimes

end
-- ==== Proof.FirstProduct.lean ====
/-
  The first region's output array is the matrix product of its two input arrays.

  The region walks the 100000 rows of its left operand in ten blocks of 10000 rows; at each block it multiplies the
  block by the whole right operand (a 128 × 64 matrix) into a zero accumulator and writes the 10000 × 64 result back as
  the matching block of the output. Over the extended reals a change of float format is the identity and the product
  into a zero accumulator is the plain sum of products, so the entry (r, c) of the output is Σ_k x(r, k) · w(k, c),
  where x and w are the two input arrays as the region finds them: row r lies in block r / 10000, and that block's
  product reads exactly row r of x. The ten blocks tile the output, so the whole array is that one function.
-/
import proofs.«151010_j79559974191165_2_alg».proof.Proof.Gen.KernelIdeal.Frame
import proofs.«151010_j79559974191165_2_alg».proof.Proof.LibRowsTimes
import Idealize.ShloMosaic.Lib.Pipeline.Value
import Idealize.ShloMosaic.Lib.ValueIdx

noncomputable section

namespace Cert.KernelIdeal.FirstProduct

open Cert.KernelIdeal Cert.KernelIdeal.Gen Idealize.ShloMosaic Idealize.ShloMosaic.TcCoe Idealize.SL.Sem
open Idealize.ShloMosaic.ValueIdx Idealize.ShloMosaic.RowsTimes
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- One block's product at an entry: the sum over the contracted axis of the products of the two blocks' entries. -/
theorem block_product (x0 : FVec Ideal S10000x128 .f32) (x1 : FVec Ideal S128x64 .f32) (p : Fin 10000) (q : Fin 64) :
    k0_pay1 (F := Ideal) x0 x1 (ix2 p q) = ∑ k : Fin 128, x0 (ix2 p k) * x1 (ix2 k q) := by
  unfold k0_pay1
  exact matmul_zero_apply dot_S10000x128_S128x64_S10000x64_1_0_0_1_n_n rfl rfl rfl rfl rfl rfl rfl rfl none x0 x1 p q

/-- The output array as one function of the two input arrays. -/
abbrev product (c : Dev nD) : S100000x64.Idx → EReal :=
  rowsTimes (M := 100000) (K := 128) (N := 64) (V c main_arg0) (V c main_arg3)

/-- The product at an index, spelt out. -/
theorem entry (x : S100000x128.Idx → EReal) (w : S128x64.Idx → EReal) (i : S100000x64.Idx) :
    rowsTimes (M := 100000) (K := 128) (N := 64) x w i = ∑ k : Fin 128, x (ix2 (i 0) k) * w (ix2 k (i 1)) := rfl

/-- The printed index maps over the ten grid points: the left operand's block moves with the output's, down the rows;
    the right operand stays whole. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks is some grid point's. -/
theorem index_onto : ∀ q0 : Fin 10, ∃ t : Fin cfg0.N, win0_2.index t = ![q0.val, 0] :=
  (by decide +kernel : ∀ q0 : Fin 10, ∃ t : Fin grid0.N, win0_2.index t = ![q0.val, 0])

/-- What a grid point writes back is its block of the product. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero origin]
  simp only [View.ld_unit_zero (S := S10000x128) origin, View.ld_unit_zero (S := S128x64) origin]
  obtain ⟨e0, e1, e2, e3, e4, e5⟩ := index_facts t
  funext j
  obtain ⟨p, q, rfl⟩ : ∃ (p : Fin 10000) (q : Fin 64), j = ix2 p q := ⟨j 0, j 1, eq_ix2 j⟩
  refine (block_product _ _ p q).trans ?_
  refine Eq.trans ?_ (entry (V c main_arg0) (V c main_arg3) (((cfg0.win 2).blk t).view.emb (ix2 p q))).symm
  refine Finset.sum_congr rfl fun k _ => ?_
  have hx : iblk0 V c 0 t (ix2 p k) = V c main_arg0 (ix2 ((((cfg0.win 2).blk t).view.emb (ix2 p q)) 0) k) := by
    show V c main_arg0 (((cfg0.win 0).blk t).view.emb (ix2 p k)) = _
    refine congrArg (V c main_arg0) (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  have hw : iblk0 V c 1 t (ix2 k q) = V c main_arg3 (ix2 k ((((cfg0.win 2).blk t).view.emb (ix2 p q)) 1)) := by
    show V c main_arg3 (((cfg0.win 1).blk t).view.emb (ix2 k q)) = _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  exact congrArg₂ (fun a b : EReal => a * b) hx hw

/-- An index of the output lies in a grid point's block iff each coordinate lies in the block's range on its axis. -/
theorem mem_block (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v35).slice (win0_2.rect t)).set ↔ _
  rw [View.set_slice_whole, Rect.mem_set_unit]
  exact Iff.rfl

/-- The ten blocks tile the output: row r lies in block r / 10000. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := index_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- THE OUTPUT ARRAY after the region is the product of the two input arrays as the region finds them. -/
theorem array_eq (c : Dev nD) : (dat0 V c).arrAt 2 cfg0.N = product V c :=
  (dat0 V c).arrAt_eq_of_cover 2 (product V c) (fun t _ => flushed_eq V c t) covered

end Cert.KernelIdeal.FirstProduct

end
-- ==== Proof.SecondProduct.lean ====
/-
  The second region's output array is the matrix product of its row-shifted first input with its third.

  The region walks the 100000 rows of its first input in ten blocks of 10000 rows. At each block it adds the one row
  of its second input (a 1 × 64 array) to every row of the block, multiplies the result by the whole third input (a
  64 × 64 matrix) into a zero accumulator and writes the 10000 × 64 product back as the matching block of the output.
  Over the extended reals the identity casts, the changes of float format and the zero accumulator all drop out, so the
  entry (r, c) of the output is Σ_k (a(r, k) + b(0, k)) · w(k, c), where a, b and w are the three input arrays as the
  region finds them. The ten blocks tile the output, so the whole array is that one function.
-/
import proofs.«151010_j79559974191165_2_alg».proof.Proof.Gen.KernelIdeal.Frame
import proofs.«151010_j79559974191165_2_alg».proof.Proof.LibRowsTimes
import Idealize.ShloMosaic.Lib.Pipeline.Value
import Idealize.ShloMosaic.Lib.ValueIdx
import Idealize.ShloMosaic.Lib.ValueLayout

noncomputable section

namespace Cert.KernelIdeal.SecondProduct

open Cert.KernelIdeal Cert.KernelIdeal.Gen Idealize.ShloMosaic Idealize.ShloMosaic.TcCoe Idealize.SL.Sem
open Idealize.ShloMosaic.ValueIdx Idealize.ShloMosaic.RowsTimes
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- An array with one row added to each of its rows. -/
def shifted (a : S100000x64.Idx → EReal) (b : S1x64.Idx → EReal) : S100000x64.Idx → EReal :=
  fun i => a i + b (ix2 (0 : Fin 1) (i 1))

/-- One block's product at an entry: the sum over the contracted axis of the shifted block's entries times the
    matrix's. -/
theorem block_product (x0 : FVec Ideal S10000x64 .f32) (x1 : FVec Ideal S1x64 .f32) (x2 : FVec Ideal S64x64 .f32)
    (p : Fin 10000) (q : Fin 64) :
    k1_pay1 (F := Ideal) x0 x1 x2 (ix2 p q) = ∑ k : Fin 64, (x0 (ix2 p k) + x1 (ix2 (0 : Fin 1) k)) * x2 (ix2 k q) := by
  unfold k1_pay1
  refine (matmul_zero_apply dot_S10000x64_S64x64_S10000x64_1_0_0_1_n_n rfl rfl rfl rfl rfl rfl rfl rfl none _ _ p q).trans ?_
  refine Finset.sum_congr rfl fun k _ => ?_
  refine congrArg₂ (fun a b : EReal => a * b) ?_ rfl
  show (shapeCast S10000x64 x0 shapeCasts_S10000x64_S10000x64 (ix2 p k) : EReal)
      + broadcastTo S10000x64 (shapeCast S1x64 x1 shapeCasts_S1x64_S1x64) broadcasts_S1x64_S10000x64 (ix2 p k) = _
  rw [shapeCast_self, shapeCast_self, broadcastTo_1b_ab_apply]

/-- The output array as one function of the three input arrays. -/
abbrev product (c : Dev nD) : S100000x64.Idx → EReal :=
  rowsTimes (M := 100000) (K := 64) (N := 64) (shifted (V c main_v47) (V c main_v48)) (V c main_arg5)

/-- The product at an index, spelt out. -/
theorem entry (a : S100000x64.Idx → EReal) (b : S1x64.Idx → EReal) (w : S64x64.Idx → EReal) (i : S100000x64.Idx) :
    rowsTimes (M := 100000) (K := 64) (N := 64) (shifted a b) w i
      = ∑ k : Fin 64, (a (ix2 (i 0) k) + b (ix2 (0 : Fin 1) k)) * w (ix2 k (i 1)) := rfl

/-- The printed index maps over the ten grid points: the first input's block moves with the output's, down the rows;
    the other two inputs stay whole. -/
theorem index_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) ≤ 9 :=
  (by decide +kernel : ∀ t : Fin grid1.N, _)

/-- Every one of the ten row blocks is some grid point's. -/
theorem index_onto : ∀ q0 : Fin 10, ∃ t : Fin cfg1.N, win1_3.index t = ![q0.val, 0] :=
  (by decide +kernel : ∀ q0 : Fin 10, ∃ t : Fin grid1.N, win1_3.index t = ![q0.val, 0])

/-- What a grid point writes back is its block of the product. -/
theorem flushed_eq (c : Dev nD) (t : Fin cfg1.N) :
    (dat1 V c).flushed 3 t = ((cfg1.win 3).blk t).view.read (Elt Ideal) (product V c) := by
  show (cfg1.win 3).cut (grid1.coords t) ((dat1 V c).after 3 t) = _
  rw [after1_3]
  unfold out1_3
  rw [View.canon_unit_zero origin]
  simp only [View.ld_unit_zero (S := S10000x64) origin, View.ld_unit_zero (S := S1x64) origin,
    View.ld_unit_zero (S := S64x64) origin]
  obtain ⟨e0, e1, e2, e3, e4, e5, e6, e7⟩ := index_facts t
  funext j
  obtain ⟨p, q, rfl⟩ : ∃ (p : Fin 10000) (q : Fin 64), j = ix2 p q := ⟨j 0, j 1, eq_ix2 j⟩
  refine (block_product _ _ _ p q).trans ?_
  refine Eq.trans ?_ (entry (V c main_v47) (V c main_v48) (V c main_arg5) (((cfg1.win 3).blk t).view.emb (ix2 p q))).symm
  refine Finset.sum_congr rfl fun k _ => ?_
  have ha : iblk1 V c 0 t (ix2 p k) = V c main_v47 (ix2 ((((cfg1.win 3).blk t).view.emb (ix2 p q)) 0) k) := by
    show V c main_v47 (((cfg1.win 0).blk t).view.emb (ix2 p k)) = _
    refine congrArg (V c main_v47) (funext fun a => Fin.ext ?_)
    match a with
    | ⟨0, _⟩ => show win1_0.index t (0 : Fin 2) * 10000 + 1 * p.val = win1_3.index t (0 : Fin 2) * 10000 + 1 * p.val; omega
    | ⟨1, _⟩ => show win1_0.index t (1 : Fin 2) * 64 + 1 * k.val = k.val; omega
  have hb : iblk1 V c 1 t (ix2 (0 : Fin 1) k) = V c main_v48 (ix2 (0 : Fin 1) k) := by
    show V c main_v48 (((cfg1.win 1).blk t).view.emb (ix2 (0 : Fin 1) k)) = _
    refine congrArg (V c main_v48) (funext fun a => Fin.ext ?_)
    match a with
    | ⟨0, _⟩ => show win1_1.index t (0 : Fin 2) * 1 + 1 * 0 = 0; omega
    | ⟨1, _⟩ => show win1_1.index t (1 : Fin 2) * 64 + 1 * k.val = k.val; omega
  have hw : iblk1 V c 2 t (ix2 k q) = V c main_arg5 (ix2 k ((((cfg1.win 3).blk t).view.emb (ix2 p q)) 1)) := by
    show V c main_arg5 (((cfg1.win 2).blk t).view.emb (ix2 k q)) = _
    refine congrArg (V c main_arg5) (funext fun a => Fin.ext ?_)
    match a with
    | ⟨0, _⟩ => show win1_2.index t (0 : Fin 2) * 64 + 1 * k.val = k.val; omega
    | ⟨1, _⟩ => show win1_2.index t (1 : Fin 2) * 64 + 1 * q.val = win1_3.index t (1 : Fin 2) * 64 + 1 * q.val; omega
  exact congrArg₂ (fun a b : EReal => a * b) (congrArg₂ (fun a b : EReal => a + b) ha hb) hw

/-- An index of the output lies in a grid point's block iff each coordinate lies in the block's range on its axis. -/
theorem mem_block (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v49).slice (win1_3.rect t)).set ↔ _
  rw [View.set_slice_whole, Rect.mem_set_unit]
  exact Iff.rfl

/-- The ten blocks tile the output: row r lies in block r / 10000. -/
theorem covered (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := index_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- THE OUTPUT ARRAY after the region is the product of the row-shifted first input with the third, as the region
    finds them. -/
theorem array_eq (c : Dev nD) : (dat1 V c).arrAt 3 cfg1.N = product V c :=
  (dat1 V c).arrAt_eq_of_cover 3 (product V c) (fun t _ => flushed_eq V c t) covered

end Cert.KernelIdeal.SecondProduct

end
-- ==== Proof.LibKeepdimsSum.lean ====
/-
  A row sum kept as a column, read at an index.

  `jnp.sum(x, axis=-1, keepdims=True)` of an `[a, b]` matrix is computed as a sum along the last axis into an `[a]`
  vector, which a shape cast then stands up as an `[a, 1]` column. Over the extended reals the sum from the zero
  accumulator is the plain finite sum of the row, so the column's entry at `(p, 0)` is Σ_k x[p, k].
-/
import Idealize.ShloMosaic.Lib.ValueLayout
import Idealize.ShloMosaic.PureOps.Ideal.Laws

namespace Cert.KeepdimsSum

open Idealize.ShloMosaic Idealize.ShloMosaic.ValueIdx

variable {α : Type}

/-- An `[a]` vector cast to an `[a, 1]` column reads, at `(p, u)`, the vector's entry `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A float sum along the last axis of an `[a, b]` matrix from the zero accumulator, read over the extended reals:
    entry `p` of the result is the finite sum of row `p`. -/
theorem rowSum_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  match c with
  | ⟨0, _⟩ => rfl
  | ⟨1, _⟩ => rfl

/-- The same sum kept as an `[a, 1]` column: its entry at `(p, u)` is the finite sum of row `p`. -/
theorem rowSum_column_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src 0x00000000#32 h hφ hacc) hc (ix2 p u)
      = ∑ k : Fin b, src (ix2 p k) :=
  (shapeCast_a_a1_apply _ hc p u).trans (rowSum_apply src h hφ hacc p)

end Cert.KeepdimsSum
-- ==== Proof.Readout.lean ====
/-
  The third region's output column is the clamped, rounded row score of its inputs.

  The region walks the 100000 rows of its first input in ten blocks of 10000 rows. At each block it adds the one row
  of its second input (1 × 64) to every row, multiplies each row entry by the matching entry of its third input (a
  64 × 1 column laid along the row), sums each row, adds the single entry of its fourth input (1 × 1), clamps the sum
  between the two literal bounds and rounds it to the nearest integer, ties to even; the 10000 × 1 result is written
  back as the matching block of the output column. Over the extended reals the identity casts drop out and the row sum
  from the zero accumulator is the plain finite sum, so the entry (r, 0) of the output is
  round (min (hi, max (lo, Σ_k (a(r, k) + b(0, k)) · w(k, 0) + f(0, 0)))). The ten blocks tile the column.
-/
import proofs.«151010_j79559974191165_2_alg».proof.Proof.Gen.KernelIdeal.Frame
import proofs.«151010_j79559974191165_2_alg».proof.Proof.LibKeepdimsSum
import Idealize.ShloMosaic.Lib.Pipeline.Value
import Idealize.ShloMosaic.Lib.ValueIdx
import Idealize.ShloMosaic.Lib.ValueLayout

noncomputable section

namespace Cert.KernelIdeal.Readout

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- Clamp between the two literal bounds, then round to the nearest integer, ties to even. -/
def clampRound (s : EReal) : EReal :=
  FloatOps.roundeven (F := Ideal) (φ := .f32)
    (FloatOps.minimumf (F := Ideal) (φ := .f32) (Scalar.ofBits (F := Ideal) .f32 0x41200000#32)
      (FloatOps.maximumf (F := Ideal) (φ := .f32) (Scalar.ofBits (F := Ideal) .f32 0x00000000#32) s))

/-- An `[a, 1]` column cast to an `[a]` vector reads, at `i`, the column's entry `(i, 0)`. -/
theorem column_as_vector {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- One block's score at a row: the clamped, rounded sum over the row of the shifted entries times the column's,
    plus the offset. -/
theorem block_score (x0 : FVec Ideal S10000x64 .f32) (x1 : FVec Ideal S1x64 .f32) (x2 : FVec Ideal S64x1 .f32)
    (x3 : FVec Ideal S1x1 .f32) (p : Fin 10000) (u : Fin 1) :
    k2_pay1 (F := Ideal) x0 x1 x2 x3 (ix2 p u)
      = clampRound ((∑ k : Fin 64, (x0 (ix2 p k) + x1 (ix2 (0 : Fin 1) k)) * x2 (ix2 k (0 : Fin 1)))
          + x3 (ix2 (0 : Fin 1) u)) := by
  unfold k2_pay1
  show clampRound
      (shapeCast S10000x1
          (multiReduction .add [1] S10000
            (mulf (addf (shapeCast S10000x64 x0 shapeCasts_S10000x64_S10000x64)
                (broadcastTo S10000x64 (shapeCast S1x64 x1 shapeCasts_S1x64_S1x64) broadcasts_S1x64_S10000x64))
              (broadcastTo S10000x64 (shapeCast S1x64 (shapeCast S64 x2 shapeCasts_S64x1_S64) shapeCasts_S64_S1x64)
                broadcasts_S1x64_S10000x64))
            0x00000000#32 reduces_S10000x64_S10000 (.inl rfl) rfl) shapeCasts_S10000_S10000x1 (ix2 p u)
        + broadcastTo S10000x1 (shapeCast S1x1 x3 shapeCasts_S1x1_S1x1) broadcasts_S1x1_S10000x1 (ix2 p u)) = _
  refine congrArg clampRound (congrArg₂ (fun a b : EReal => a + b) ?_ ?_)
  · refine (Cert.KeepdimsSum.rowSum_column_apply _ reduces_S10000x64_S10000 (.inl rfl) rfl shapeCasts_S10000_S10000x1 p u).trans ?_
    refine Finset.sum_congr rfl fun k _ => ?_
    show (shapeCast S10000x64 x0 shapeCasts_S10000x64_S10000x64 (ix2 p k)
          + broadcastTo S10000x64 (shapeCast S1x64 x1 shapeCasts_S1x64_S1x64) broadcasts_S1x64_S10000x64 (ix2 p k))
        * broadcastTo S10000x64 (shapeCast S1x64 (shapeCast S64 x2 shapeCasts_S64x1_S64) shapeCasts_S64_S1x64)
            broadcasts_S1x64_S10000x64 (ix2 p k) = _
    rw [shapeCast_self, shapeCast_self, broadcastTo_1b_ab_apply, broadcastTo_1b_ab_apply, shapeCast_a_1a_apply,
      column_as_vector]
  · rw [broadcastTo_1b_ab_apply, shapeCast_self]

/-- The output column as one function of the four input arrays. -/
def score (a : S100000x64.Idx → EReal) (b : S1x64.Idx → EReal) (w : S64x1.Idx → EReal) (f : S1x1.Idx → EReal) :
    S100000x1.Idx → EReal :=
  fun i => clampRound ((∑ k : Fin 64, (a (ix2 (i 0) k) + b (ix2 (0 : Fin 1) k)) * w (ix2 k (0 : Fin 1)))
    + f (ix2 (0 : Fin 1) (i 1)))

/-- The score at an index, spelt out. -/
theorem entry (a : S100000x64.Idx → EReal) (b : S1x64.Idx → EReal) (w : S64x1.Idx → EReal) (f : S1x1.Idx → EReal)
    (i : S100000x1.Idx) :
    score a b w f i = clampRound ((∑ k : Fin 64, (a (ix2 (i 0) k) + b (ix2 (0 : Fin 1) k)) * w (ix2 k (0 : Fin 1)))
      + f (ix2 (0 : Fin 1) (i 1))) := rfl

abbrev column (c : Dev nD) : S100000x1.Idx → EReal :=
  score (V c main_v61) (V c main_v62) (V c main_arg7) (V c main_v63)

/-- The printed index maps over the ten grid points: the first input's block moves with the output's, down the rows;
    the other three inputs stay whole. -/
theorem index_facts : ∀ t : Fin cfg2.N, win2_0.index t (0 : Fin 2) = win2_4.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (1 : Fin 2) = 0
    ∧ win2_4.index t (0 : Fin 2) ≤ 9 :=
  (by decide +kernel : ∀ t : Fin grid2.N, _)

/-- Every one of the ten row blocks is some grid point's. -/
theorem index_onto : ∀ q0 : Fin 10, ∃ t : Fin cfg2.N, win2_4.index t = ![q0.val, 0] :=
  (by decide +kernel : ∀ q0 : Fin 10, ∃ t : Fin grid2.N, win2_4.index t = ![q0.val, 0])

/-- What a grid point writes back is its block of the score column. -/
theorem flushed_eq (c : Dev nD) (t : Fin cfg2.N) :
    (dat2 V c).flushed 4 t = ((cfg2.win 4).blk t).view.read (Elt Ideal) (column V c) := by
  show (cfg2.win 4).cut (grid2.coords t) ((dat2 V c).after 4 t) = _
  rw [after2_4]
  unfold out2_4
  rw [View.canon_unit_zero origin]
  simp only [View.ld_unit_zero (S := S10000x64) origin, View.ld_unit_zero (S := S1x64) origin,
    View.ld_unit_zero (S := S64x1) origin, View.ld_unit_zero (S := S1x1) origin]
  obtain ⟨e0, e1, e2, e3, e4, e5, e6, e7, e8, e9⟩ := index_facts t
  funext j
  obtain ⟨p, u, rfl⟩ : ∃ (p : Fin 10000) (u : Fin 1), j = ix2 p u := ⟨j 0, j 1, eq_ix2 j⟩
  refine (block_score _ _ _ _ p u).trans ?_
  refine Eq.trans ?_ (entry (V c main_v61) (V c main_v62) (V c main_arg7) (V c main_v63)
    (((cfg2.win 4).blk t).view.emb (ix2 p u))).symm
  refine congrArg clampRound (congrArg₂ (fun a b : EReal => a + b) (Finset.sum_congr rfl fun k _ => ?_) ?_)
  · have ha : iblk2 V c 0 t (ix2 p k) = V c main_v61 (ix2 ((((cfg2.win 4).blk t).view.emb (ix2 p u)) 0) k) := by
      show V c main_v61 (((cfg2.win 0).blk t).view.emb (ix2 p k)) = _
      refine congrArg (V c main_v61) (funext fun a => Fin.ext ?_)
      match a with
      | ⟨0, _⟩ => show win2_0.index t (0 : Fin 2) * 10000 + 1 * p.val = win2_4.index t (0 : Fin 2) * 10000 + 1 * p.val; omega
      | ⟨1, _⟩ => show win2_0.index t (1 : Fin 2) * 64 + 1 * k.val = k.val; omega
    have hb : iblk2 V c 1 t (ix2 (0 : Fin 1) k) = V c main_v62 (ix2 (0 : Fin 1) k) := by
      show V c main_v62 (((cfg2.win 1).blk t).view.emb (ix2 (0 : Fin 1) k)) = _
      refine congrArg (V c main_v62) (funext fun a => Fin.ext ?_)
      match a with
      | ⟨0, _⟩ => show win2_1.index t (0 : Fin 2) * 1 + 1 * 0 = 0; omega
      | ⟨1, _⟩ => show win2_1.index t (1 : Fin 2) * 64 + 1 * k.val = k.val; omega
    have hw : iblk2 V c 2 t (ix2 k (0 : Fin 1)) = V c main_arg7 (ix2 k (0 : Fin 1)) := by
      show V c main_arg7 (((cfg2.win 2).blk t).view.emb (ix2 k (0 : Fin 1))) = _
      refine congrArg (V c main_arg7) (funext fun a => Fin.ext ?_)
      match a with
      | ⟨0, _⟩ => show win2_2.index t (0 : Fin 2) * 64 + 1 * k.val = k.val; omega
      | ⟨1, _⟩ => show win2_2.index t (1 : Fin 2) * 1 + 1 * 0 = 0; omega
    exact congrArg₂ (fun a b : EReal => a * b) (congrArg₂ (fun a b : EReal => a + b) ha hb) hw
  · show V c main_v63 (((cfg2.win 3).blk t).view.emb (ix2 (0 : Fin 1) u)) = _
    refine congrArg (V c main_v63) (funext fun a => Fin.ext ?_)
    have hu : u.val = 0 := by omega
    match a with
    | ⟨0, _⟩ => show win2_3.index t (0 : Fin 2) * 1 + 1 * 0 = 0; omega
    | ⟨1, _⟩ => show win2_3.index t (1 : Fin 2) * 1 + 1 * u.val = win2_4.index t (1 : Fin 2) * 1 + 1 * u.val; omega

/-- An index of the output lies in a grid point's block iff each coordinate lies in the block's range on its axis. -/
theorem mem_block (t : Fin cfg2.N) (i : S100000x1.Idx) :
    i ∈ ((cfg2.win 4).blk t).view.set ↔ ∀ a : Fin 2, win2_4.index t a * S10000x1.size a ≤ (i a).val ∧ (i a).val < win2_4.index t a * S10000x1.size a + S10000x1.size a := by
  show i ∈ ((View.whole main_v64).slice (win2_4.rect t)).set ↔ _
  rw [View.set_slice_whole, Rect.mem_set_unit]
  exact Iff.rfl

/-- The ten blocks tile the output column: row r lies in block r / 10000. -/
theorem covered (i : S100000x1.Idx) :
    ∃ t : Fin cfg2.N, (cfg2.win 4).flush t = true ∧ i ∈ ((cfg2.win 4).blk t).view.set := by
  have hi0 : (i 0).val < 100000 := (i 0).isLt
  have hi1 : (i 1).val < 1 := (i 1).isLt
  obtain ⟨t, ht⟩ := index_onto ⟨(i 0).val / 10000, by omega⟩
  have q0 : win2_4.index t (0 : Fin 2) = (i 0).val / 10000 := congrFun ht 0
  have q1 : win2_4.index t (1 : Fin 2) = 0 := congrFun ht 1
  refine ⟨t, flush2_4 t, ?_⟩
  rw [mem_block]
  intro a
  match a with
  | ⟨0, _⟩ => show win2_4.index t (0 : Fin 2) * 10000 ≤ (i 0).val ∧ (i 0).val < win2_4.index t (0 : Fin 2) * 10000 + 10000; omega
  | ⟨1, _⟩ => show win2_4.index t (1 : Fin 2) * 1 ≤ (i 1).val ∧ (i 1).val < win2_4.index t (1 : Fin 2) * 1 + 1; omega

/-- THE OUTPUT COLUMN after the region is the clamped, rounded row score of the four input arrays as the region
    finds them. -/
theorem array_eq (c : Dev nD) : (dat2 V c).arrAt 4 cfg2.N = column V c :=
  (dat2 V c).arrAt_eq_of_cover 4 (column V c) (fun t _ => flushed_eq V c t) covered

end Cert.KernelIdeal.Readout

end
-- ==== Proof.Carried.lean ====
/-
  What the host stretches leave for later segments, read back to the launch memory.

  Before the first region the program builds, from the edge list and the edge weights, the source and destination
  index vectors (each edge endpoint row followed by the self-loop indices 0 … N-1) and the per-edge normalisation
  column. No later segment writes any of them, nor any argument array: a region writes only its output array, and a
  stretch writes only its own results. So at every later boundary these buffers still hold what the first stretches
  computed — the same three functions of the edge list and weights that the reference computes — and every argument
  array still holds its launch contents.
-/
import proofs.«151010_j79559974191165_2_alg».proof.Proof.Gen.KernelIdeal.Frame
import proofs.«151010_j79559974191165_2_alg».proof.Proof.Gen.ReferenceIdeal.Read

set_option maxRecDepth 100000

noncomputable section

namespace Cert.KernelIdeal.Carried

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## At the first region's entry -/

/-- The source index vector is the reference's. -/
theorem src3 (c : Dev nD) :
    W3 m ρ c (Proc.devRef .tc main_v3) = Cert.ReferenceIdeal.Read.val_main_v3 (F := Ideal) (m ((c.tc : Thread nD τ).loc main_arg1)) := by
  show StableHlo.after hostOps0_2 (StableHlo.after hostOps0_1 (StableHlo.after hostOps0 (W0 m ρ c))) (Proc.devRef .tc main_v3) = _
  after_results
  rfl

/-- The destination index vector is the reference's. -/
theorem dst3 (c : Dev nD) :
    W3 m ρ c (Proc.devRef .tc main_v6) = Cert.ReferenceIdeal.Read.val_main_v6 (F := Ideal) (m ((c.tc : Thread nD τ).loc main_arg1)) := by
  show StableHlo.after hostOps0_2 (StableHlo.after hostOps0_1 (StableHlo.after hostOps0 (W0 m ρ c))) (Proc.devRef .tc main_v6) = _
  after_results
  rfl

theorem arg0_3 (c : Dev nD) : W3 m ρ c (Proc.devRef .tc main_arg0) = (m ((c.tc : Thread nD τ).loc main_arg0)) := by
  show StableHlo.after hostOps0_2 (StableHlo.after hostOps0_1 (StableHlo.after hostOps0 (W0 m ρ c))) (Proc.devRef .tc main_arg0) = _
  after_results

theorem arg3_3 (c : Dev nD) : W3 m ρ c (Proc.devRef .tc main_arg3) = (m ((c.tc : Thread nD τ).loc main_arg3)) := by
  show StableHlo.after hostOps0_2 (StableHlo.after hostOps0_1 (StableHlo.after hostOps0 (W0 m ρ c))) (Proc.devRef .tc main_arg3) = _
  after_results

theorem arg4_3 (c : Dev nD) : W3 m ρ c (Proc.devRef .tc main_arg4) = (m ((c.tc : Thread nD τ).loc main_arg4)) := by
  show StableHlo.after hostOps0_2 (StableHlo.after hostOps0_1 (StableHlo.after hostOps0 (W0 m ρ c))) (Proc.devRef .tc main_arg4) = _
  after_results

theorem arg5_3 (c : Dev nD) : W3 m ρ c (Proc.devRef .tc main_arg5) = (m ((c.tc : Thread nD τ).loc main_arg5)) := by
  show StableHlo.after hostOps0_2 (StableHlo.after hostOps0_1 (StableHlo.after hostOps0 (W0 m ρ c))) (Proc.devRef .tc main_arg5) = _
  after_results

theorem arg6_3 (c : Dev nD) : W3 m ρ c (Proc.devRef .tc main_arg6) = (m ((c.tc : Thread nD τ).loc main_arg6)) := by
  show StableHlo.after hostOps0_2 (StableHlo.after hostOps0_1 (StableHlo.after hostOps0 (W0 m ρ c))) (Proc.devRef .tc main_arg6) = _
  after_results

theorem arg7_3 (c : Dev nD) : W3 m ρ c (Proc.devRef .tc main_arg7) = (m ((c.tc : Thread nD τ).loc main_arg7)) := by
  show StableHlo.after hostOps0_2 (StableHlo.after hostOps0_1 (StableHlo.after hostOps0 (W0 m ρ c))) (Proc.devRef .tc main_arg7) = _
  after_results

theorem arg8_3 (c : Dev nD) : W3 m ρ c (Proc.devRef .tc main_arg8) = (m ((c.tc : Thread nD τ).loc main_arg8)) := by
  show StableHlo.after hostOps0_2 (StableHlo.after hostOps0_1 (StableHlo.after hostOps0 (W0 m ρ c))) (Proc.devRef .tc main_arg8) = _
  after_results

/-! ## At the first region's exit: the region writes only its output -/

theorem src4 (c : Dev nD) :
    W4 m ρ c (Proc.devRef .tc main_v3) = Cert.ReferenceIdeal.Read.val_main_v3 (F := Ideal) (m ((c.tc : Thread nD τ).loc main_arg1)) :=
  (W4_of_ne m ρ c main_v3 (by decide)).trans (src3 m ρ c)

theorem dst4 (c : Dev nD) :
    W4 m ρ c (Proc.devRef .tc main_v6) = Cert.ReferenceIdeal.Read.val_main_v6 (F := Ideal) (m ((c.tc : Thread nD τ).loc main_arg1)) :=
  (W4_of_ne m ρ c main_v6 (by decide)).trans (dst3 m ρ c)

theorem arg4_4 (c : Dev nD) : W4 m ρ c (Proc.devRef .tc main_arg4) = (m ((c.tc : Thread nD τ).loc main_arg4)) :=
  (W4_of_ne m ρ c main_arg4 (by decide)).trans (arg4_3 m ρ c)

theorem arg5_4 (c : Dev nD) : W4 m ρ c (Proc.devRef .tc main_arg5) = (m ((c.tc : Thread nD τ).loc main_arg5)) :=
  (W4_of_ne m ρ c main_arg5 (by decide)).trans (arg5_3 m ρ c)

theorem arg6_4 (c : Dev nD) : W4 m ρ c (Proc.devRef .tc main_arg6) = (m ((c.tc : Thread nD τ).loc main_arg6)) :=
  (W4_of_ne m ρ c main_arg6 (by decide)).trans (arg6_3 m ρ c)

theorem arg7_4 (c : Dev nD) : W4 m ρ c (Proc.devRef .tc main_arg7) = (m ((c.tc : Thread nD τ).loc main_arg7)) :=
  (W4_of_ne m ρ c main_arg7 (by decide)).trans (arg7_3 m ρ c)

theorem arg8_4 (c : Dev nD) : W4 m ρ c (Proc.devRef .tc main_arg8) = (m ((c.tc : Thread nD τ).loc main_arg8)) :=
  (W4_of_ne m ρ c main_arg8 (by decide)).trans (arg8_3 m ρ c)

/-! ## At the second region's entry: the stretch writes only its own results -/

theorem src5 (c : Dev nD) :
    W5 m ρ c (Proc.devRef .tc main_v3) = Cert.ReferenceIdeal.Read.val_main_v3 (F := Ideal) (m ((c.tc : Thread nD τ).loc main_arg1)) := by
  refine Eq.trans ?_ (src4 m ρ c)
  show StableHlo.after hostOps1 (W4 m ρ c) (Proc.devRef .tc main_v3) = _
  after_results

theorem dst5 (c : Dev nD) :
    W5 m ρ c (Proc.devRef .tc main_v6) = Cert.ReferenceIdeal.Read.val_main_v6 (F := Ideal) (m ((c.tc : Thread nD τ).loc main_arg1)) := by
  refine Eq.trans ?_ (dst4 m ρ c)
  show StableHlo.after hostOps1 (W4 m ρ c) (Proc.devRef .tc main_v6) = _
  after_results

theorem arg5_5 (c : Dev nD) : W5 m ρ c (Proc.devRef .tc main_arg5) = (m ((c.tc : Thread nD τ).loc main_arg5)) := by
  refine Eq.trans ?_ (arg5_4 m ρ c)
  show StableHlo.after hostOps1 (W4 m ρ c) (Proc.devRef .tc main_arg5) = _
  after_results

theorem arg6_5 (c : Dev nD) : W5 m ρ c (Proc.devRef .tc main_arg6) = (m ((c.tc : Thread nD τ).loc main_arg6)) := by
  refine Eq.trans ?_ (arg6_4 m ρ c)
  show StableHlo.after hostOps1 (W4 m ρ c) (Proc.devRef .tc main_arg6) = _
  after_results

theorem arg7_5 (c : Dev nD) : W5 m ρ c (Proc.devRef .tc main_arg7) = (m ((c.tc : Thread nD τ).loc main_arg7)) := by
  refine Eq.trans ?_ (arg7_4 m ρ c)
  show StableHlo.after hostOps1 (W4 m ρ c) (Proc.devRef .tc main_arg7) = _
  after_results

theorem arg8_5 (c : Dev nD) : W5 m ρ c (Proc.devRef .tc main_arg8) = (m ((c.tc : Thread nD τ).loc main_arg8)) := by
  refine Eq.trans ?_ (arg8_4 m ρ c)
  show StableHlo.after hostOps1 (W4 m ρ c) (Proc.devRef .tc main_arg8) = _
  after_results

/-! ## At the second region's exit -/

theorem src6 (c : Dev nD) :
    W6 m ρ c (Proc.devRef .tc main_v3) = Cert.ReferenceIdeal.Read.val_main_v3 (F := Ideal) (m ((c.tc : Thread nD τ).loc main_arg1)) :=
  (W6_of_ne m ρ c main_v3 (by decide)).trans (src5 m ρ c)

theorem dst6 (c : Dev nD) :
    W6 m ρ c (Proc.devRef .tc main_v6) = Cert.ReferenceIdeal.Read.val_main_v6 (F := Ideal) (m ((c.tc : Thread nD τ).loc main_arg1)) :=
  (W6_of_ne m ρ c main_v6 (by decide)).trans (dst5 m ρ c)

theorem arg6_6 (c : Dev nD) : W6 m ρ c (Proc.devRef .tc main_arg6) = (m ((c.tc : Thread nD τ).loc main_arg6)) :=
  (W6_of_ne m ρ c main_arg6 (by decide)).trans (arg6_5 m ρ c)

theorem arg7_6 (c : Dev nD) : W6 m ρ c (Proc.devRef .tc main_arg7) = (m ((c.tc : Thread nD τ).loc main_arg7)) :=
  (W6_of_ne m ρ c main_arg7 (by decide)).trans (arg7_5 m ρ c)

theorem arg8_6 (c : Dev nD) : W6 m ρ c (Proc.devRef .tc main_arg8) = (m ((c.tc : Thread nD τ).loc main_arg8)) :=
  (W6_of_ne m ρ c main_arg8 (by decide)).trans (arg8_5 m ρ c)

/-! ## At the third region's entry -/

theorem arg7_7 (c : Dev nD) : W7 m ρ c (Proc.devRef .tc main_arg7) = (m ((c.tc : Thread nD τ).loc main_arg7)) := by
  refine Eq.trans ?_ (arg7_6 m ρ c)
  show StableHlo.after hostOps2 (W6 m ρ c) (Proc.devRef .tc main_arg7) = _
  after_results

end Cert.KernelIdeal.Carried

end
-- ==== Proof.NormColumn.lean ====
/-
  The per-edge normalisation column, read back to the edge list and the edge weights.

  The first stretch builds the extended weight vector (the edge weights followed by N ones), sums it into node degrees
  by destination, and takes the reciprocal square root of each degree clamped below by a small positive literal,
  together with the mask "degree is positive". An inlined select then keeps the reciprocal root where the degree is
  positive and zero elsewhere. The last stretch before the first region gathers that vector at the source and at the
  destination of every edge and multiplies the two with the edge's weight, and stands the result up as a column. The
  reference computes the same column by the same operations, so stage by stage the two are one function of the edge
  list and the edge weights; no arithmetic law is used, only that each stretch reads what the previous one left.
-/
import proofs.«151010_j79559974191165_2_alg».proof.Proof.Gen.KernelIdeal.Frame
import proofs.«151010_j79559974191165_2_alg».proof.Proof.Gen.ReferenceIdeal.Read

set_option maxRecDepth 100000

noncomputable section

namespace Cert.KernelIdeal.NormColumn

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## After the first stretch -/

theorem src1 (c : Dev nD) :
    W1 m ρ c (Proc.devRef .tc main_v3) = Cert.ReferenceIdeal.Read.val_main_v3 (F := Ideal) (m ((c.tc : Thread nD τ).loc main_arg1)) := by
  show StableHlo.after hostOps0 (W0 m ρ c) (Proc.devRef .tc main_v3) = _
  after_results
  rfl

theorem dst1 (c : Dev nD) :
    W1 m ρ c (Proc.devRef .tc main_v6) = Cert.ReferenceIdeal.Read.val_main_v6 (F := Ideal) (m ((c.tc : Thread nD τ).loc main_arg1)) := by
  show StableHlo.after hostOps0 (W0 m ρ c) (Proc.devRef .tc main_v6) = _
  after_results
  rfl

/-- The extended weight vector. -/
theorem weights1 (c : Dev nD) :
    W1 m ρ c (Proc.devRef .tc main_v8) = Cert.ReferenceIdeal.Read.val_main_v8 (F := Ideal) (m ((c.tc : Thread nD τ).loc main_arg2)) := by
  show StableHlo.after hostOps0 (W0 m ρ c) (Proc.devRef .tc main_v8) = _
  after_results
  rfl

/-- The mask "the degree is positive". -/
theorem positive1 (c : Dev nD) :
    W1 m ρ c (Proc.devRef .tc main_v13) = Cert.ReferenceIdeal.Read.val_main_v13 (F := Ideal) (m ((c.tc : Thread nD τ).loc main_arg1)) (m ((c.tc : Thread nD τ).loc main_arg2)) := by
  show StableHlo.after hostOps0 (W0 m ρ c) (Proc.devRef .tc main_v13) = _
  after_results
  rfl

/-- The reciprocal square root of the clamped degree. -/
theorem rsqrt1 (c : Dev nD) :
    W1 m ρ c (Proc.devRef .tc main_v16) = Cert.ReferenceIdeal.Read.val_main_v16 (F := Ideal) (m ((c.tc : Thread nD τ).loc main_arg1)) (m ((c.tc : Thread nD τ).loc main_arg2)) := by
  show StableHlo.after hostOps0 (W0 m ρ c) (Proc.devRef .tc main_v16) = _
  after_results
  rfl

theorem zero1 (c : Dev nD) :
    W1 m ρ c (Proc.devRef .tc main_cst_3) = Cert.ReferenceIdeal.Read.val_main_cst_3 (F := Ideal) := by
  show StableHlo.after hostOps0 (W0 m ρ c) (Proc.devRef .tc main_cst_3) = _
  after_results
  rfl

/-! ## After the inlined select -/

theorem src2 (c : Dev nD) :
    W2 m ρ c (Proc.devRef .tc main_v3) = Cert.ReferenceIdeal.Read.val_main_v3 (F := Ideal) (m ((c.tc : Thread nD τ).loc main_arg1)) := by
  have h := src1 m ρ c
  show StableHlo.after hostOps0_1 (W1 m ρ c) (Proc.devRef .tc main_v3) = _
  generalize W1 m ρ c = Vl at h ⊢
  after_results_simp
  exact h

theorem dst2 (c : Dev nD) :
    W2 m ρ c (Proc.devRef .tc main_v6) = Cert.ReferenceIdeal.Read.val_main_v6 (F := Ideal) (m ((c.tc : Thread nD τ).loc main_arg1)) := by
  have h := dst1 m ρ c
  show StableHlo.after hostOps0_1 (W1 m ρ c) (Proc.devRef .tc main_v6) = _
  generalize W1 m ρ c = Vl at h ⊢
  after_results_simp
  exact h

theorem weights2 (c : Dev nD) :
    W2 m ρ c (Proc.devRef .tc main_v8) = Cert.ReferenceIdeal.Read.val_main_v8 (F := Ideal) (m ((c.tc : Thread nD τ).loc main_arg2)) := by
  have h := weights1 m ρ c
  show StableHlo.after hostOps0_1 (W1 m ρ c) (Proc.devRef .tc main_v8) = _
  generalize W1 m ρ c = Vl at h ⊢
  after_results_simp
  exact h

/-! ## The inlined select reads and writes each buffer at its tensor type

An operation of a called function carries a value into its buffer's type and back along the equation between the two
types. For the buffers of this program that equation holds by computation, so each carry is the identity; stated one
operation at a time. -/

section Carries

variable (A : (⟨Cert.ReferenceIdeal.S100000, .i1⟩ : BufTy).Contents (Elt Ideal)) (B : (⟨Cert.ReferenceIdeal.S100000, .f32⟩ : BufTy).Contents (Elt Ideal))
  (C : (⟨Cert.ReferenceIdeal.S_, .f32⟩ : BufTy).Contents (Elt Ideal)) (Z : (⟨Cert.ReferenceIdeal.S100000, .f32⟩ : BufTy).Contents (Elt Ideal))
  (p13 : main_v13.ty = ⟨S100000, .i1⟩) (d13 : main_v13.space ≠ .host) (u13 : main_v13.isScoped = false)
  (p16 : main_v16.ty = ⟨S100000, .f32⟩) (d16 : main_v16.space ≠ .host) (u16 : main_v16.isScoped = false)
  (p17 : main_v17.ty = ⟨S100000, .f32⟩) (d17 : main_v17.space ≠ .host) (u17 : main_v17.isScoped = false)
  (pc1 : main_call0_v1.ty = ⟨S100000, .f32⟩) (dc1 : main_call0_v1.space ≠ .host) (uc1 : main_call0_v1.isScoped = false)
  (pc0 : main_call0_v0.ty = ⟨S_, .f32⟩) (dc0 : main_call0_v0.space ≠ .host) (uc0 : main_call0_v0.isScoped = false)
  (pz : main_cst_3.ty = ⟨S_, .f32⟩) (dz : main_cst_3.space ≠ .host) (uz : main_cst_3.isScoped = false)

/-- The select reads its mask and its first branch as they are. -/
theorem select_carry :
    select ((TRef.of (sig := sig) main_v13 p13 d13 u13).ofBuf A) ((TRef.of (sig := sig) main_v16 p16 d16 u16).ofBuf B) Z
      = select A B Z := rfl

/-- The other branch is the zero, converted and broadcast, as it is. -/
theorem zero_carry :
    (TRef.of (sig := sig) main_call0_v1 pc1 dc1 uc1).ofBuf ((TRef.of (sig := sig) main_call0_v1 pc1 dc1 uc1).toBuf
        (broadcastInDim S100000 ![] bcast_S_S100000
          ((TRef.of (sig := sig) main_call0_v0 pc0 dc0 uc0).ofBuf ((TRef.of (sig := sig) main_call0_v0 pc0 dc0 uc0).toBuf
            (id ((TRef.of (sig := sig) main_cst_3 pz dz uz).ofBuf C))))))
      = broadcastInDim Cert.ReferenceIdeal.S100000 ![] Cert.ReferenceIdeal.Gen.bcast_S_S100000 (id C) := rfl

/-- The result is written as it is. -/
theorem result_carry : (TRef.of (sig := sig) main_v17 p17 d17 u17).toBuf Z = Z := rfl

end Carries

/-- The inlined select, from any buffer contents holding the mask, the reciprocal root and the zero: the reciprocal
    root where the degree is positive, zero elsewhere. -/
theorem scale_of (Vl : Valuation τ sig (Elt Ideal)) (x1 : (⟨Cert.ReferenceIdeal.S2x1600000, .i32⟩ : BufTy).Contents (Elt Ideal)) (x2 : (⟨Cert.ReferenceIdeal.S1600000, .f32⟩ : BufTy).Contents (Elt Ideal))
    (h13 : Vl (Proc.devRef .tc main_v13) = Cert.ReferenceIdeal.Read.val_main_v13 (F := Ideal) x1 x2)
    (h16 : Vl (Proc.devRef .tc main_v16) = Cert.ReferenceIdeal.Read.val_main_v16 (F := Ideal) x1 x2)
    (h0 : Vl (Proc.devRef .tc main_cst_3) = Cert.ReferenceIdeal.Read.val_main_cst_3 (F := Ideal)) :
    StableHlo.after hostOps0_1 Vl (Proc.devRef .tc main_v17) = Cert.ReferenceIdeal.Read.val_main_v17 (F := Ideal) x1 x2 := by
  after_results_simp
  rw [h13, h16, h0]
  unfold Cert.ReferenceIdeal.Read.val_main_v17 Cert.ReferenceIdeal.Read.val_main_call0_v1 Cert.ReferenceIdeal.Read.val_main_call0_v0
  rw [zero_carry, select_carry, result_carry]

theorem scale2 (c : Dev nD) :
    W2 m ρ c (Proc.devRef .tc main_v17) = Cert.ReferenceIdeal.Read.val_main_v17 (F := Ideal) (m ((c.tc : Thread nD τ).loc main_arg1)) (m ((c.tc : Thread nD τ).loc main_arg2)) :=
  scale_of (W1 m ρ c) _ _ (positive1 m ρ c) (rsqrt1 m ρ c) (zero1 m ρ c)

/-! ## At the first region's entry -/

set_option maxHeartbeats 4000000 in
/-- The last stretch before the first region, from any buffer contents holding the scale vector, the two index
    vectors and the extended weights: the normalisation column. -/
theorem norm_of (Vl : Valuation τ sig (Elt Ideal)) (x1 : (⟨Cert.ReferenceIdeal.S2x1600000, .i32⟩ : BufTy).Contents (Elt Ideal)) (x2 : (⟨Cert.ReferenceIdeal.S1600000, .f32⟩ : BufTy).Contents (Elt Ideal))
    (h17 : Vl (Proc.devRef .tc main_v17) = Cert.ReferenceIdeal.Read.val_main_v17 (F := Ideal) x1 x2)
    (h3 : Vl (Proc.devRef .tc main_v3) = Cert.ReferenceIdeal.Read.val_main_v3 (F := Ideal) x1)
    (h6 : Vl (Proc.devRef .tc main_v6) = Cert.ReferenceIdeal.Read.val_main_v6 (F := Ideal) x1)
    (h8 : Vl (Proc.devRef .tc main_v8) = Cert.ReferenceIdeal.Read.val_main_v8 (F := Ideal) x2) :
    StableHlo.after hostOps0_2 Vl (Proc.devRef .tc main_v34) = Cert.ReferenceIdeal.Read.val_main_v42 (F := Ideal) x1 x2 := by
  after_results_simp
  rw [h17, h3, h6, h8]
  unfold Cert.ReferenceIdeal.Read.val_main_v42 Cert.ReferenceIdeal.Read.val_main_v33 Cert.ReferenceIdeal.Read.val_main_v25 Cert.ReferenceIdeal.Read.val_main_v24 Cert.ReferenceIdeal.Read.val_main_v23 Cert.ReferenceIdeal.Read.val_main_v22 Cert.ReferenceIdeal.Read.val_main_v19 Cert.ReferenceIdeal.Read.val_main_v18 Cert.ReferenceIdeal.Read.val_main_c Cert.ReferenceIdeal.Read.val_main_v21 Cert.ReferenceIdeal.Read.val_main_v20 Cert.ReferenceIdeal.Read.val_main_c_4 Cert.ReferenceIdeal.Read.val_main_v32 Cert.ReferenceIdeal.Read.val_main_v31 Cert.ReferenceIdeal.Read.val_main_v30 Cert.ReferenceIdeal.Read.val_main_v27 Cert.ReferenceIdeal.Read.val_main_v26 Cert.ReferenceIdeal.Read.val_main_c_5 Cert.ReferenceIdeal.Read.val_main_v29 Cert.ReferenceIdeal.Read.val_main_v28 Cert.ReferenceIdeal.Read.val_main_c_6
  generalize Cert.ReferenceIdeal.Read.val_main_v17 (F := Ideal) x1 x2 = S
  generalize Cert.ReferenceIdeal.Read.val_main_v3 (F := Ideal) x1 = I
  generalize Cert.ReferenceIdeal.Read.val_main_v6 (F := Ideal) x1 = J
  generalize Cert.ReferenceIdeal.Read.val_main_v8 (F := Ideal) x2 = E
  rfl

/-- THE NORMALISATION COLUMN is the reference's. -/
theorem norm3 (c : Dev nD) :
    W3 m ρ c (Proc.devRef .tc main_v34) = Cert.ReferenceIdeal.Read.val_main_v42 (F := Ideal) (m ((c.tc : Thread nD τ).loc main_arg1)) (m ((c.tc : Thread nD τ).loc main_arg2)) :=
  norm_of (W2 m ρ c) _ _ (scale2 m ρ c) (src2 m ρ c) (dst2 m ρ c) (weights2 m ρ c)

/-! ## Later boundaries: no region and no later stretch writes the column -/

theorem norm4 (c : Dev nD) :
    W4 m ρ c (Proc.devRef .tc main_v34) = Cert.ReferenceIdeal.Read.val_main_v42 (F := Ideal) (m ((c.tc : Thread nD τ).loc main_arg1)) (m ((c.tc : Thread nD τ).loc main_arg2)) :=
  (W4_of_ne m ρ c main_v34 (by decide)).trans (norm3 m ρ c)

theorem norm5 (c : Dev nD) :
    W5 m ρ c (Proc.devRef .tc main_v34) = Cert.ReferenceIdeal.Read.val_main_v42 (F := Ideal) (m ((c.tc : Thread nD τ).loc main_arg1)) (m ((c.tc : Thread nD τ).loc main_arg2)) := by
  refine Eq.trans ?_ (norm4 m ρ c)
  show StableHlo.after hostOps1 (W4 m ρ c) (Proc.devRef .tc main_v34) = _
  after_results

theorem norm6 (c : Dev nD) :
    W6 m ρ c (Proc.devRef .tc main_v34) = Cert.ReferenceIdeal.Read.val_main_v42 (F := Ideal) (m ((c.tc : Thread nD τ).loc main_arg1)) (m ((c.tc : Thread nD τ).loc main_arg2)) :=
  (W6_of_ne m ρ c main_v34 (by decide)).trans (norm5 m ρ c)

end Cert.KernelIdeal.NormColumn

end
-- ==== Proof.Layers.lean ====
/-
  Layer by layer, the kernel program's arrays are the reference's.

  Each graph-convolution layer is a dense map followed by the shared message passing: gather the rows of the dense
  map's output at each edge's source, scale by the edge's normalisation, sum into the destination rows. The kernel
  program computes each dense map in a region (block by block) and the reference by one matrix product; over the
  extended reals both are the same sum of products, entry by entry. The message passing is the same chain of host
  operations on both sides, applied to equal arrays. The bias of a layer is added by the reference right after the
  message passing and by the kernel program at the start of the next region: the same sum a(r, k) + b(k) either way.
  The last region's row score Σ_k (a(r, k) + b(k)) · w(k, 0) + f is the reference's matrix product with a one-column
  matrix plus the broadcast offset, and both clamp and round it by the same functions.
-/
import proofs.«151010_j79559974191165_2_alg».proof.Proof.Gen.KernelIdeal.Frame
import proofs.«151010_j79559974191165_2_alg».proof.Proof.Gen.ReferenceIdeal.Read
import proofs.«151010_j79559974191165_2_alg».proof.Proof.FirstProduct
import proofs.«151010_j79559974191165_2_alg».proof.Proof.SecondProduct
import proofs.«151010_j79559974191165_2_alg».proof.Proof.Readout
import proofs.«151010_j79559974191165_2_alg».proof.Proof.Carried
import proofs.«151010_j79559974191165_2_alg».proof.Proof.NormColumn
import proofs.«151010_j79559974191165_2_alg».proof.Proof.LibRowsTimes
import Idealize.ShloMosaic.Lib.ValueLayout

set_option maxRecDepth 100000

noncomputable section

namespace Cert.KernelIdeal.Layers

open Cert.KernelIdeal Cert.KernelIdeal.Gen Idealize.ShloMosaic Idealize.ShloMosaic.TcCoe Idealize.SL.Sem
open Idealize.ShloMosaic.StableHlo Idealize.ShloMosaic.ValueIdx Idealize.ShloMosaic.RowsTimes

/-! ## The two ways of adding a layer's bias, and the two ways of scoring a row -/

/-- Adding the one row of a `[64]` vector stood up as `[1, 64]` to every row of an array is adding the vector
    broadcast over the rows. -/
theorem shifted_eq (a : S100000x64.Idx → EReal) (b : S64.Idx → EReal) :
    SecondProduct.shifted a (shapeCast S1x64 b shapeCasts_S64_S1x64)
      = addf (F := Ideal) (φ := .f32) a (Cert.ReferenceIdeal.Read.val_main_v49 (F := Ideal) b) := by
  funext i
  obtain ⟨r, k, rfl⟩ : ∃ (r : Fin 100000) (k : Fin 64), i = ix2 r k := ⟨i 0, i 1, eq_ix2 i⟩
  show a (ix2 r k) + shapeCast S1x64 b shapeCasts_S64_S1x64 (ix2 (0 : Fin 1) k) = a (ix2 r k) + Cert.ReferenceIdeal.Read.val_main_v49 (F := Ideal) b (ix2 r k)
  rw [shapeCast_a_1a_apply, Cert.ReferenceIdeal.Read.val_main_v49_apply, Cert.ReferenceIdeal.Read.val_main_v48_apply]
  refine congrArg (fun y : EReal => a (ix2 r k) + y) (congrArg b (funext fun d => Fin.ext ?_))
  match d with
  | ⟨0, _⟩ => rfl

/-- The same for the last layer's bias. -/
theorem shifted_eq' (a : S100000x64.Idx → EReal) (b : S64.Idx → EReal) :
    SecondProduct.shifted a (shapeCast S1x64 b shapeCasts_S64_S1x64)
      = addf (F := Ideal) (φ := .f32) a (Cert.ReferenceIdeal.Read.val_main_v66 (F := Ideal) b) := by
  funext i
  obtain ⟨r, k, rfl⟩ : ∃ (r : Fin 100000) (k : Fin 64), i = ix2 r k := ⟨i 0, i 1, eq_ix2 i⟩
  show a (ix2 r k) + shapeCast S1x64 b shapeCasts_S64_S1x64 (ix2 (0 : Fin 1) k) = a (ix2 r k) + Cert.ReferenceIdeal.Read.val_main_v66 (F := Ideal) b (ix2 r k)
  rw [shapeCast_a_1a_apply, Cert.ReferenceIdeal.Read.val_main_v66_apply, Cert.ReferenceIdeal.Read.val_main_v65_apply]
  refine congrArg (fun y : EReal => a (ix2 r k) + y) (congrArg b (funext fun d => Fin.ext ?_))
  match d with
  | ⟨0, _⟩ => rfl

/-- THE ROW SCORE: the clamped, rounded sum over a row of the shifted entries times a one-column matrix, plus the
    offset, is the reference's product with that matrix plus the broadcast offset, clamped and rounded. -/
theorem score_eq (a : S100000x64.Idx → EReal) (b : S64.Idx → EReal) (w : S64x1.Idx → EReal) (f : S1.Idx → EReal) :
    Readout.score a (shapeCast S1x64 b shapeCasts_S64_S1x64) w (shapeCast S1x1 f shapeCasts_S1_S1x1)
      = Host.roundeven (F := Ideal) (φ := .f32) (minimumf (F := Ideal) (φ := .f32) (Cert.ReferenceIdeal.Read.val_main_call1_v4 (F := Ideal))
          (maximumf (F := Ideal) (φ := .f32) (Cert.ReferenceIdeal.Read.val_main_call1_v1 (F := Ideal))
            (addf (F := Ideal) (φ := .f32)
              (Host.dotGeneral (F := Ideal) (φ₁ := .f32) (φ₂ := .f32) Cert.ReferenceIdeal.dot_S100000x64_S64x1_S100000x1_1_0_0_1_n_n none
                (addf (F := Ideal) (φ := .f32) a (Cert.ReferenceIdeal.Read.val_main_v66 (F := Ideal) b)) w)
              (Cert.ReferenceIdeal.Read.val_main_v70 (F := Ideal) f)))) := by
  rw [hostDot_eq (φ₁ := .f32) (φ₂ := .f32) Cert.ReferenceIdeal.dot_S100000x64_S64x1_S100000x1_1_0_0_1_n_n rfl rfl rfl rfl rfl rfl rfl rfl none, ← shifted_eq']
  funext i
  obtain ⟨r, u, rfl⟩ : ∃ (r : Fin 100000) (u : Fin 1), i = ix2 r u := ⟨i 0, i 1, eq_ix2 i⟩
  have hu : u = 0 := Subsingleton.elim _ _
  subst hu
  rw [Readout.entry]
  show Readout.clampRound _ = FloatOps.hostUnary (F := Ideal) (φ := .f32) .roundeven
      (FloatOps.minimumf (Cert.ReferenceIdeal.Read.val_main_call1_v4 (F := Ideal) (ix2 r 0))
        (FloatOps.maximumf (Cert.ReferenceIdeal.Read.val_main_call1_v1 (F := Ideal) (ix2 r 0))
          (rowsTimes (M := 100000) (K := 64) (N := 1) (SecondProduct.shifted a (shapeCast S1x64 b shapeCasts_S64_S1x64)) w (ix2 r 0)
            + Cert.ReferenceIdeal.Read.val_main_v70 (F := Ideal) f (ix2 r 0))))
  rw [Cert.ReferenceIdeal.Read.val_main_call1_v4_apply, Cert.ReferenceIdeal.Read.val_main_call1_v3_apply, Cert.ReferenceIdeal.Read.val_main_cst_14_apply,
    Cert.ReferenceIdeal.Read.val_main_call1_v1_apply, Cert.ReferenceIdeal.Read.val_main_call1_v0_apply, Cert.ReferenceIdeal.Read.val_main_cst_13_apply,
    Cert.ReferenceIdeal.Read.val_main_v70_apply, Cert.ReferenceIdeal.Read.val_main_v69_apply, shapeCast_a_1a_apply, rowsTimes_apply]
  unfold Readout.clampRound
  refine congrArg (fun y : EReal => FloatOps.hostUnary (F := Ideal) (φ := .f32) .roundeven
      (FloatOps.minimumf (F := Ideal) (φ := .f32) (FloatOps.ofBits .f32 0x41200000#32)
        (FloatOps.maximumf (F := Ideal) (φ := .f32) (FloatOps.ofBits .f32 0x00000000#32) y))) ?_
  refine congrArg₂ (fun y z : EReal => y + z) rfl (congrArg f (funext fun d => Fin.ext ?_))
  match d with
  | ⟨0, _⟩ => rfl

variable (m : (ℓ : Loc nD τ sig) → Buf (Elt Ideal) ℓ) (ρ : Dev nD → PrngReg)

/-! ## The first layer -/

/-- The first region's output is the reference's first dense map. -/
theorem dense1 (c : Dev nD) :
    W4 m ρ c (Proc.devRef .tc main_v35) = Cert.ReferenceIdeal.Read.val_main_v34 (F := Ideal) (m ((c.tc : Thread nD τ).loc main_arg0)) (m ((c.tc : Thread nD τ).loc main_arg3)) := by
  refine (W4_arr m ρ c 2).trans ((FirstProduct.array_eq (V3 m ρ) c).trans ?_)
  show rowsTimes (M := 100000) (K := 128) (N := 64) (W3 m ρ c (Proc.devRef .tc main_arg0)) (W3 m ρ c (Proc.devRef .tc main_arg3)) = _
  rw [Carried.arg0_3, Carried.arg3_3]
  unfold Cert.ReferenceIdeal.Read.val_main_v34
  exact (hostDot_eq Cert.ReferenceIdeal.dot_S100000x128_S128x64_S100000x64_1_0_0_1_n_n rfl rfl rfl rfl rfl rfl rfl rfl none _ _).symm

set_option maxHeartbeats 4000000 in
/-- The first message passing's result is the reference's. -/
theorem passed1 (c : Dev nD) :
    W5 m ρ c (Proc.devRef .tc main_v47) = Cert.ReferenceIdeal.Read.val_main_v47 (F := Ideal) (m ((c.tc : Thread nD τ).loc main_arg0)) (m ((c.tc : Thread nD τ).loc main_arg1)) (m ((c.tc : Thread nD τ).loc main_arg2)) (m ((c.tc : Thread nD τ).loc main_arg3)) := by
  show StableHlo.after hostOps1 (W4 m ρ c) (Proc.devRef .tc main_v47) = _
  after_results_simp
  rw [dense1, Carried.src4, Carried.dst4, NormColumn.norm4]
  unfold Cert.ReferenceIdeal.Read.val_main_v47 Cert.ReferenceIdeal.Read.val_main_v46 Cert.ReferenceIdeal.Read.val_main_v45 Cert.ReferenceIdeal.Read.val_main_cst_9 Cert.ReferenceIdeal.Read.val_main_v44 Cert.ReferenceIdeal.Read.val_main_v43 Cert.ReferenceIdeal.Read.val_main_v41 Cert.ReferenceIdeal.Read.val_main_v40 Cert.ReferenceIdeal.Read.val_main_v39 Cert.ReferenceIdeal.Read.val_main_v36 Cert.ReferenceIdeal.Read.val_main_v35 Cert.ReferenceIdeal.Read.val_main_c_7 Cert.ReferenceIdeal.Read.val_main_v38 Cert.ReferenceIdeal.Read.val_main_v37 Cert.ReferenceIdeal.Read.val_main_c_8
  generalize Cert.ReferenceIdeal.Read.val_main_v34 (F := Ideal) (m ((c.tc : Thread nD τ).loc main_arg0)) (m ((c.tc : Thread nD τ).loc main_arg3)) = H
  generalize Cert.ReferenceIdeal.Read.val_main_v3 (F := Ideal) (m ((c.tc : Thread nD τ).loc main_arg1)) = I
  generalize Cert.ReferenceIdeal.Read.val_main_v6 (F := Ideal) (m ((c.tc : Thread nD τ).loc main_arg1)) = J
  generalize Cert.ReferenceIdeal.Read.val_main_v42 (F := Ideal) (m ((c.tc : Thread nD τ).loc main_arg1)) (m ((c.tc : Thread nD τ).loc main_arg2)) = N
  rfl

/-- The first layer's bias, stood up as one row. -/
theorem bias1 (c : Dev nD) :
    W5 m ρ c (Proc.devRef .tc main_v48) = shapeCast S1x64 (m ((c.tc : Thread nD τ).loc main_arg4)) shapeCasts_S64_S1x64 := by
  show StableHlo.after hostOps1 (W4 m ρ c) (Proc.devRef .tc main_v48) = _
  after_results
  rw [Carried.arg4_4]
  rfl

/-! ## The second layer -/

/-- The second region's output is the reference's second dense map. -/
theorem dense2 (c : Dev nD) :
    W6 m ρ c (Proc.devRef .tc main_v49)
      = Cert.ReferenceIdeal.Read.val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W6_arr m ρ c 3).trans ((SecondProduct.array_eq (V5 m ρ) c).trans ?_)
  show rowsTimes (M := 100000) (K := 64) (N := 64)
      (SecondProduct.shifted (W5 m ρ c (Proc.devRef .tc main_v47)) (W5 m ρ c (Proc.devRef .tc main_v48)))
      (W5 m ρ c (Proc.devRef .tc main_arg5)) = _
  rw [passed1, bias1, Carried.arg5_5, shifted_eq]
  unfold Cert.ReferenceIdeal.Read.val_main_v51 Cert.ReferenceIdeal.Read.val_main_v50
  exact (hostDot_eq Cert.ReferenceIdeal.dot_S100000x64_S64x64_S100000x64_1_0_0_1_n_n rfl rfl rfl rfl rfl rfl rfl rfl none _ _).symm

set_option maxHeartbeats 4000000 in
/-- The second message passing's result is the reference's. -/
theorem passed2 (c : Dev nD) :
    W7 m ρ c (Proc.devRef .tc main_v61)
      = Cert.ReferenceIdeal.Read.val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show StableHlo.after hostOps2 (W6 m ρ c) (Proc.devRef .tc main_v61) = _
  after_results_simp
  rw [dense2, Carried.src6, Carried.dst6, NormColumn.norm6]
  unfold Cert.ReferenceIdeal.Read.val_main_v64 Cert.ReferenceIdeal.Read.val_main_v63 Cert.ReferenceIdeal.Read.val_main_v62 Cert.ReferenceIdeal.Read.val_main_cst_12 Cert.ReferenceIdeal.Read.val_main_v61 Cert.ReferenceIdeal.Read.val_main_v60 Cert.ReferenceIdeal.Read.val_main_v59 Cert.ReferenceIdeal.Read.val_main_v58 Cert.ReferenceIdeal.Read.val_main_v57 Cert.ReferenceIdeal.Read.val_main_v56 Cert.ReferenceIdeal.Read.val_main_v53 Cert.ReferenceIdeal.Read.val_main_v52 Cert.ReferenceIdeal.Read.val_main_c_10 Cert.ReferenceIdeal.Read.val_main_v55 Cert.ReferenceIdeal.Read.val_main_v54 Cert.ReferenceIdeal.Read.val_main_c_11 Cert.ReferenceIdeal.Read.val_main_v42
  generalize Cert.ReferenceIdeal.Read.val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = H
  generalize Cert.ReferenceIdeal.Read.val_main_v3 (F := Ideal) (m ((c.tc : Thread nD τ).loc main_arg1)) = I
  generalize Cert.ReferenceIdeal.Read.val_main_v6 (F := Ideal) (m ((c.tc : Thread nD τ).loc main_arg1)) = J
  generalize Cert.ReferenceIdeal.Read.val_main_v33 (F := Ideal) (m ((c.tc : Thread nD τ).loc main_arg1)) (m ((c.tc : Thread nD τ).loc main_arg2)) = N
  rfl

/-- The second layer's bias, stood up as one row. -/
theorem bias2 (c : Dev nD) :
    W7 m ρ c (Proc.devRef .tc main_v62) = shapeCast S1x64 (m ((c.tc : Thread nD τ).loc main_arg6)) shapeCasts_S64_S1x64 := by
  show StableHlo.after hostOps2 (W6 m ρ c) (Proc.devRef .tc main_v62) = _
  after_results
  rw [Carried.arg6_6]
  rfl

/-- The readout's offset, stood up as a one-entry matrix. -/
theorem offset (c : Dev nD) :
    W7 m ρ c (Proc.devRef .tc main_v63) = shapeCast S1x1 (m ((c.tc : Thread nD τ).loc main_arg8)) shapeCasts_S1_S1x1 := by
  show StableHlo.after hostOps2 (W6 m ρ c) (Proc.devRef .tc main_v63) = _
  after_results
  rw [Carried.arg8_6]
  rfl

/-! ## The readout -/

/-- THE RESULT: the third region's output column is the reference's result. -/
theorem result (c : Dev nD) :
    W8 m ρ c (Proc.devRef .tc main_v64)
      = Cert.ReferenceIdeal.Read.val_main_v73 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (W8_arr m ρ c 4).trans ((Readout.array_eq (V7 m ρ) c).trans ?_)
  show Readout.score (W7 m ρ c (Proc.devRef .tc main_v61)) (W7 m ρ c (Proc.devRef .tc main_v62))
      (W7 m ρ c (Proc.devRef .tc main_arg7)) (W7 m ρ c (Proc.devRef .tc main_v63)) = _
  rw [passed2, bias2, Carried.arg7_7, offset, score_eq]
  rfl

end Cert.KernelIdeal.Layers

end
-- ==== Proof.lean ====
/-
  The kernel program and its reference compute the same column over the extended reals.

  Both programs take node features, an edge list with weights, and the parameters of two graph-convolution layers and
  a linear readout. Both build the same normalised adjacency data from the edge list (self-loops added, degrees
  summed by destination, reciprocal square roots gathered at both endpoints), and both pass messages by the same
  gather, scale and sum-by-destination. They differ only in how the three dense maps are computed: the kernel program
  in three regions, each walking the 100000 node rows in ten blocks of 10000, the reference by three whole matrix
  products. Over the extended reals a change of float format is the identity and a product into a zero accumulator is
  the plain sum of products, so each region's output array is the reference's dense map, entry by entry: the sums are
  the same sums of the same products, and a layer's bias is the same a(r, k) + b(k) whether it is added right after
  the message passing or at the start of the next dense map. The readout's row score is clamped between the same
  bounds and rounded by the same function on both sides. No step uses an arithmetic law beyond reading the same
  operations on equal arrays, so the finiteness of the inputs is never opened.

  The three frames: the two kernel programs run through their segments (host stretches and regions) with every
  argument array read back to the launch memory; the reference is a straight line of host operations. The ideal
  pass rewrote no operation, so its conjunct is trivial.
-/
import proofs.«151010_j79559974191165_2_alg».proof.Defs
import proofs.«151010_j79559974191165_2_alg».proof.Proof.Gen.Kernel
import proofs.«151010_j79559974191165_2_alg».proof.Proof.Gen.Kernel.Skeleton
import proofs.«151010_j79559974191165_2_alg».proof.Proof.Gen.Kernel.Launch
import proofs.«151010_j79559974191165_2_alg».proof.Proof.Gen.Kernel.Points
import proofs.«151010_j79559974191165_2_alg».proof.Proof.Gen.Kernel.Frame
import proofs.«151010_j79559974191165_2_alg».proof.Proof.Gen.KernelIdeal
import proofs.«151010_j79559974191165_2_alg».proof.Proof.Gen.KernelIdeal.Skeleton
import proofs.«151010_j79559974191165_2_alg».proof.Proof.Gen.KernelIdeal.Launch
import proofs.«151010_j79559974191165_2_alg».proof.Proof.Gen.KernelIdeal.Points
import proofs.«151010_j79559974191165_2_alg».proof.Proof.Gen.KernelIdeal.Frame
import proofs.«151010_j79559974191165_2_alg».proof.Proof.Gen.ReferenceIdeal
import proofs.«151010_j79559974191165_2_alg».proof.Proof.Gen.ReferenceIdeal.Run
import proofs.«151010_j79559974191165_2_alg».proof.Proof.Gen.ReferenceIdeal.Read
import proofs.«151010_j79559974191165_2_alg».proof.Proof.Gen.Pre_finite_inputs
import proofs.«151010_j79559974191165_2_alg».proof.Proof.KernelRun
import proofs.«151010_j79559974191165_2_alg».proof.Proof.Layers
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same column: the kernel program's last region
    leaves the reference's result term of the kernel program's own arguments, which are the reference's. -/
theorem algebraic : Cert.algebraic_KernelIdeal_ReferenceIdeal := by
  intro m ρ m' ρ' _ hagree
  refine ⟨fun c => Cert.KernelIdeal.Gen.W8 m ρ c (Proc.devRef .tc Cert.KernelIdeal.main_v64),
    Cert.KernelIdeal.ResultRun.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v73_eq, h0, h1, h2, h3, h4, h5, h6, h7, h8]
  exact (Cert.KernelIdeal.Layers.result m ρ c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
